-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 38
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .i1⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LeakySage.lean ====
/-
  The graph layer both programs compute, written once as a function of five arrays over the extended reals.

  For a node `p` and an output feature `q`, with `agg` the neighbourhood mean of the node features, `x` the node
  features themselves, `wl` and `wr` the two weight matrices (indexed output feature first, input feature second)
  and `b` the bias:

      s(p, q) = ((∑ₖ agg(p, k) · wl(q, k)) + b(q)) + ∑ₖ x(p, k) · wr(q, k)
      out(p, q) = s(p, q) if s(p, q) > 0, and slope · s(p, q) otherwise.

  The sums run over the 128 input features. The grouping of the three summands is the one both programs use, so no
  rearrangement of an extended-real sum is ever needed. The zero the activation compares against and its slope are
  kept as the two 32-bit words both programs print; the same word on both sides is never evaluated.

  The mean `agg` is an argument here, not a formula: both programs compute it by the same operations of `x` and the
  edge list before anything else happens, and nothing below depends on what those operations are.
-/
import Idealize.ShloMosaic.PureOps.Ideal
import Idealize.ShloMosaic.Lib.ValueIdx

noncomputable section

namespace Cert.LeakySage

open Idealize.ShloMosaic Idealize.ShloMosaic.ValueIdx

/-- Node-by-feature arrays: 100000 nodes, 128 features. -/
abbrev Nodes : Shape := ⟨2, ![100000, 128]⟩
/-- A weight matrix: 128 output features by 128 input features. -/
abbrev Weights : Shape := ⟨2, ![128, 128]⟩
/-- The bias: one entry per output feature. -/
abbrev Bias : Shape := ⟨1, ![128]⟩

/-- The affine part of the layer at node `p` and output feature `q`: the aggregated features through `wl`, plus the
    bias, plus the node's own features through `wr`, grouped in that order. -/
def affine (agg x : FVec Ideal Nodes .f32) (wl wr : FVec Ideal Weights .f32) (b : FVec Ideal Bias .f32)
    (p : Fin 100000) (q : Fin 128) : EReal :=
  ((∑ k : Fin 128, agg (ix2 p k) * wl (ix2 q k)) + b (ix1 q)) + ∑ k : Fin 128, x (ix2 p k) * wr (ix2 q k)

/-- The leaky rectifier: `s` itself where `s` is above zero, the slope times `s` elsewhere. Zero is the word
    `0x00000000` and the slope the word `0x3E4CCCCD` (the single-precision float nearest to one fifth). -/
def leaky (s : EReal) : EReal :=
  Scalar.select (FloatOps.cmpf (F := Ideal) (φ := .f32) .ogt s (FloatOps.ofBits .f32 0x00000000#32)) s
    (FloatOps.mulf (F := Ideal) (φ := .f32) (FloatOps.ofBits .f32 0x3E4CCCCD#32) s)

/-- The layer: the leaky rectifier of the affine part, entry by entry. -/
def layer (agg x : FVec Ideal Nodes .f32) (wl wr : FVec Ideal Weights .f32) (b : FVec Ideal Bias .f32) :
    FVec Ideal Nodes .f32 :=
  fun i => leaky (affine agg x wl wr b (i 0) (i 1))

/-- The layer at an index given by its two coordinates. -/
theorem layer_ix2 (agg x : FVec Ideal Nodes .f32) (wl wr : FVec Ideal Weights .f32) (b : FVec Ideal Bias .f32)
    (p : Fin 100000) (q : Fin 128) : layer agg x wl wr b (ix2 p q) = leaky (affine agg x wl wr b p q) := rfl

end Cert.LeakySage

end
-- ==== Proof.ReferenceValue.lean ====
/-
  The reference program computes the layer of `LeakySage`.

  Its last value is a select between the affine part and the slope times the affine part, on the comparison of the
  affine part with zero; the affine part is a product of the aggregated features with the transposed left weights,
  plus the bias broadcast over the nodes, plus a product of the node features with the transposed right weights.
  Read at node `p` and output feature `q`:
    • a product with a transposed weight matrix, `∑ₖ l(p, k) · wᵀ(k, q)`, is `∑ₖ l(p, k) · w(q, k)`;
    • the bias, sent to one row of 128 and then to every node, is `b(q)`;
  and the comparison, the product with the slope and the select are entry by entry. The aggregated features stay the
  value the program computed for them (its stage 22, a function of the node features and the edge list).
-/
import proofs.«158038_j3693671874806_1_alg».proof.Proof.Gen.ReferenceIdeal.Read
import proofs.«158038_j3693671874806_1_alg».proof.Proof.LeakySage

noncomputable section

namespace Cert.ReferenceIdeal.RefValue

open Cert.ReferenceIdeal Cert.ReferenceIdeal.Read Idealize.ShloMosaic Idealize.ShloMosaic.ValueIdx

/-! ## Where each stage reads its operand -/

/-- The left factor of either product at `(p, q)`, summand `k`, sits at `(p, k)`. -/
theorem left_at (p : Fin 100000) (q k : Fin 128) : lidx_main_v24 (ix2 p q) k = ix2 p k :=
  funext fun a => Fin.ext (by match a with | ⟨0, _⟩ => rfl | ⟨1, _⟩ => rfl)

/-- The transposed left weights at `(k, q)` are the left weights at `(q, k)`. -/
theorem left_weight_at (p : Fin 100000) (q k : Fin 128) : idx_main_v23 (ridx_main_v24 (ix2 p q) k) = ix2 q k :=
  funext fun a => Fin.ext (by match a with | ⟨0, _⟩ => rfl | ⟨1, _⟩ => rfl)

/-- The same for the second product's left factor, -/
theorem right_at (p : Fin 100000) (q k : Fin 128) : lidx_main_v29 (ix2 p q) k = ix2 p k :=
  funext fun a => Fin.ext (by match a with | ⟨0, _⟩ => rfl | ⟨1, _⟩ => rfl)

/-- and for the transposed right weights. -/
theorem right_weight_at (p : Fin 100000) (q k : Fin 128) : idx_main_v28 (ridx_main_v29 (ix2 p q) k) = ix2 q k :=
  funext fun a => Fin.ext (by match a with | ⟨0, _⟩ => rfl | ⟨1, _⟩ => rfl)

/-- The bias, broadcast to one row and then to every node, is read at the output feature. -/
theorem bias_at (p : Fin 100000) (q : Fin 128) : idx_main_v25 (idx_main_v26 (ix2 p q)) = ix1 q :=
  funext fun a => Fin.ext (by match a with | ⟨0, _⟩ => rfl)

/-! ## The stages, read at a node and an output feature -/

/-- The value before the activation is the layer's affine part of the aggregated features the program computed. -/
theorem affine_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (p : Fin 100000) (q : Fin 128) :
    val_main_v30 (F := Ideal) x0 x1 x2 x3 x4 (ix2 p q)
      = Cert.LeakySage.affine (val_main_v22 (F := Ideal) x0 x1) x0 x2 x4 x3 p q := by
  rw [val_main_v30_apply, val_main_v27_apply, val_main_v24_apply, val_main_v29_apply, val_main_v26_apply, val_main_v25_apply]
  simp only [val_main_v23_apply, val_main_v28_apply, left_at, left_weight_at, right_at, right_weight_at, bias_at]
  rfl

/-- The program's result is the layer of the aggregated features it computed, the node features, the two weight
    matrices and the bias. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v35 (F := Ideal) x0 x1 x2 x3 x4
      = Cert.LeakySage.layer (val_main_v22 (F := Ideal) x0 x1) x0 x2 x4 x3 := by
  funext i
  obtain ⟨p, q, rfl⟩ : ∃ (p : Fin 100000) (q : Fin 128), i = ix2 p q := ⟨i 0, i 1, eq_ix2 i⟩
  rw [Cert.LeakySage.layer_ix2, val_main_v35_apply, val_main_v32_apply, val_main_v34_apply, val_main_v31_apply,
    val_main_v33_apply, affine_eq]
  rfl

end Cert.ReferenceIdeal.RefValue

end
-- ==== Proof.SameAggregate.lean ====
/-
  The two programs aggregate the neighbours' features by the same operations.

  Both begin alike: the two rows of the edge list are taken apart; a negative source index is wrapped around by the
  number of nodes; the source nodes' feature rows are gathered; the gathered rows are added into their target nodes,
  starting from zeros; the edges arriving at each node are counted in the same way, starting from zeros and adding
  ones; and every feature of a node's sum is divided by the larger of the node's count and one. Operation by
  operation and constant by constant these are one list of operations in the two programs, so the array the kernel
  receives as its first operand is the array the reference computes at its stage 22 — of the same node features and
  the same edge list. Nothing here says what a gather or a scattered sum returns: the two sides are the same
  composition of the same functions, which differ only in which program's shape records name their dimensions.
-/
import proofs.«158038_j3693671874806_1_alg».proof.Proof.Gen.KernelIdeal.Frame
import proofs.«158038_j3693671874806_1_alg».proof.Proof.Gen.ReferenceIdeal.Read
import Idealize.ShloMosaic.Lib.StableHlo.Run

noncomputable section

namespace Cert.KernelIdeal.SameAggregate

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

set_option maxRecDepth 8192 in
set_option maxHeartbeats 2000000 in
/-- The aggregated features as the kernel finds them are the reference's aggregated features of the same node
    features and edge list: the host operations before the launch, composed, are the reference's stages, composed. -/
theorem aggregate_eq : (V m c main_v22 : S100000x128.Idx → EReal)
    = Cert.ReferenceIdeal.Read.val_main_v22 (F := Ideal) (m ((c : Thread nD τ).loc main_arg0)) (m ((c : Thread nD τ).loc main_arg1)) := by
  dsimp only [Gen.V, Gen.hostOps0]
  after_results_simp
  simp only [Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_cst_3, Cert.ReferenceIdeal.Read.val_main_v17, Cert.ReferenceIdeal.Read.val_main_v16, Cert.ReferenceIdeal.Read.val_main_v15, Cert.ReferenceIdeal.Read.val_main_cst_2, Cert.ReferenceIdeal.Read.val_main_v14, Cert.ReferenceIdeal.Read.val_main_cst_1, Cert.ReferenceIdeal.Read.val_main_v13, Cert.ReferenceIdeal.Read.val_main_v12, Cert.ReferenceIdeal.Read.val_main_v11, Cert.ReferenceIdeal.Read.val_main_cst, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_c_0, Cert.ReferenceIdeal.Read.val_main_v5, Cert.ReferenceIdeal.Read.val_main_v4, Cert.ReferenceIdeal.Read.val_main_c, Cert.ReferenceIdeal.Read.val_main_v3, Cert.ReferenceIdeal.Read.val_main_v2, Cert.ReferenceIdeal.Read.val_main_v1, Cert.ReferenceIdeal.Read.val_main_v0]
  rfl

end Cert.KernelIdeal.SameAggregate

end
-- ==== Proof.BlockValue.lean ====
/-
  What the kernel body computes on one block of 5000 nodes, read at a node `p` of the block and an output feature `q`.

  The body loads the block of aggregated features `a`, the block of node features `x`, the two transposed weight
  matrices `lt` and `rt` (input feature first, output feature second) and the bias as one row `b`, and stores

      leaky (((∑ₖ a(p, k) · lt(k, q)) + b(0, q)) + ∑ₖ x(p, k) · rt(k, q)).

  Each product is a matrix product accumulated into zeros, so it is the plain sum; the narrowing of the operands to
  16-bit floats before each product changes nothing over the extended reals; the bias row is repeated over the 5000
  nodes; the comparison with zero, the product with the slope and the select act entry by entry.
-/
import proofs.«158038_j3693671874806_1_alg».proof.Proof.Gen.KernelIdeal.Skeleton
import proofs.«158038_j3693671874806_1_alg».proof.Proof.LeakySage
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The product's operands at an output index: which entries the sum multiplies -/

/-- The left operand's row is the output's row. -/
theorem left_row (i : S5000x128.Idx) (s : dot_S5000x128_S128x128_S5000x128_1_0_0_1_n_n.contr.Idx) : (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the summation index. -/
theorem left_col (i : S5000x128.Idx) (s : dot_S5000x128_S128x128_S5000x128_1_0_0_1_n_n.contr.Idx) : (dot_S5000x128_S128x128_S5000x128_1_0_0_1_n_n.lhsIdx i s 1).val = (s ⟨0, by decide⟩).val :=
  dot_S5000x128_S128x128_S5000x128_1_0_0_1_n_n.lhsIdx_val_of_single rfl i s

/-- The right operand's row is the summation index. -/
theorem right_row (i : S5000x128.Idx) (s : dot_S5000x128_S128x128_S5000x128_1_0_0_1_n_n.contr.Idx) : (dot_S5000x128_S128x128_S5000x128_1_0_0_1_n_n.rhsIdx i s 0).val = (s ⟨0, by decide⟩).val :=
  dot_S5000x128_S128x128_S5000x128_1_0_0_1_n_n.rhsIdx_val_of_single rfl i s

/-- The right operand's column is the output's column. -/
theorem right_col (i : S5000x128.Idx) (s : dot_S5000x128_S128x128_S5000x128_1_0_0_1_n_n.contr.Idx) : (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 by 128 matrix, accumulated into zeros, read at `(p, q)`: the sum over the 128
    shared features of the row's entry times the column's entry. -/
theorem product_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact left_row _ _
    | ⟨1, _⟩ => exact (left_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (right_row _ _).trans hk
    | ⟨1, _⟩ => exact right_col _ _)
  rw [el, er]

/-! ## The stored value -/

/-- The activation the body applies, entry by entry, is the layer's leaky rectifier. -/
theorem activation_at (s : FVec Ideal S5000x128 .f32) (i : S5000x128.Idx) :
    select (cmpf .ogt s (broadcast S5000x128 (Scalar.ofBits (F := Ideal) .f32 0x00000000#32))) s
        (mulf (broadcast S5000x128 (Scalar.ofBits (F := Ideal) .f32 0x3E4CCCCD#32)) s) i
      = Cert.LeakySage.leaky (s i) := rfl

/-- The value the body stores, at node `p` of the block and output feature `q`. -/
theorem payload_at (a x : Vec Ideal S5000x128 .f32) (lt rt : Vec Ideal S128x128 .f32) (b : Vec Ideal S1x128 .f32)
    (p : Fin 5000) (q : Fin 128) :
    k0_pay1 (F := Ideal) a x lt rt b (ix2 p q)
      = Cert.LeakySage.leaky (((∑ k : Fin 128, a (ix2 p k) * lt (ix2 k q)) + b (ix2 (0 : Fin 1) q))
          + ∑ k : Fin 128, x (ix2 p k) * rt (ix2 k q)) := by
  unfold k0_pay1
  refine (activation_at _ _).trans (congrArg Cert.LeakySage.leaky ?_)
  rw [addf_apply, addf_apply, product_at, product_at, broadcastTo_1b_ab_apply]
  simp only [shapeCast_self, truncf_apply]

/-! ## The layer over the arrays as the kernel finds them -/

/-- The layer written over the arrays the kernel is launched on: aggregated features `agg` and node features `x`,
    the two weight arrays ALREADY TRANSPOSED (`lt`, `rt`: input feature first) and the bias as ONE ROW `br`. -/
def found (agg x : FVec Ideal Cert.LeakySage.Nodes .f32) (lt rt : FVec Ideal Cert.LeakySage.Weights .f32)
    (br : FVec Ideal S1x128 .f32) : FVec Ideal Cert.LeakySage.Nodes .f32 :=
  fun i => Cert.LeakySage.leaky (((∑ k : Fin 128, agg (ix2 (i 0) k) * lt (ix2 k (i 1))) + br (ix2 (0 : Fin 1) (i 1)))
    + ∑ k : Fin 128, x (ix2 (i 0) k) * rt (ix2 k (i 1)))

/-- It at an index given by its two coordinates. -/
theorem found_ix2 (agg x : FVec Ideal Cert.LeakySage.Nodes .f32) (lt rt : FVec Ideal Cert.LeakySage.Weights .f32)
    (br : FVec Ideal S1x128 .f32) (r : Fin 100000) (q : Fin 128) :
    found agg x lt rt br (ix2 r q)
      = Cert.LeakySage.leaky (((∑ k : Fin 128, agg (ix2 r k) * lt (ix2 k q)) + br (ix2 (0 : Fin 1) q))
          + ∑ k : Fin 128, x (ix2 r k) * rt (ix2 k q)) := rfl

/-- With the weight arrays the transposes of `wl` and `wr` and the row the bias `b`, it is the layer. -/
theorem found_eq_layer (agg x : FVec Ideal Cert.LeakySage.Nodes .f32) (lt rt wl wr : FVec Ideal Cert.LeakySage.Weights .f32)
    (br : FVec Ideal S1x128 .f32) (b : FVec Ideal Cert.LeakySage.Bias .f32)
    (hl : ∀ k q : Fin 128, lt (ix2 k q) = wl (ix2 q k)) (hr : ∀ k q : Fin 128, rt (ix2 k q) = wr (ix2 q k))
    (hb : ∀ q : Fin 128, br (ix2 (0 : Fin 1) q) = b (ix1 q)) :
    found agg x lt rt br = Cert.LeakySage.layer agg x wl wr b := by
  funext i
  obtain ⟨r, q, rfl⟩ : ∃ (r : Fin 100000) (q : Fin 128), i = ix2 r q := ⟨i 0, i 1, eq_ix2 i⟩
  rw [found_ix2, Cert.LeakySage.layer_ix2]
  unfold Cert.LeakySage.affine
  simp only [hl, hr, hb]

end Cert.KernelIdeal.BlockValue

end
-- ==== Proof.BlockPlaces.lean ====
/-
  Where the kernel's blocks sit in their arrays.

  The kernel runs at 20 grid points. At point `t` the windows onto the aggregated features, the node features and the
  output are at rows `5000·t … 5000·t + 4999`, all 128 columns; the windows onto the two weight arrays and the bias
  row are the whole arrays. So reading point `t`'s block of a 100000-row array at `(p, k)` reads the array at
  `(5000·t + p, k)`, reading a weight or bias block reads the array at the same index, and node `r` of the output lies
  in the block of point `r / 5000`: the 20 blocks cover the output.
-/
import proofs.«158038_j3693671874806_1_alg».proof.Proof.Gen.KernelIdeal.Value
import Idealize.ShloMosaic.Lib.ValueIdx

set_option maxRecDepth 16384

noncomputable section

namespace Cert.KernelIdeal.BlockPlaces

open Cert.KernelIdeal Cert.KernelIdeal.Gen Idealize.ShloMosaic Idealize.ShloMosaic.TcCoe Idealize.SL.Sem
open Idealize.ShloMosaic.ValueIdx

theorem origin : (![0, 0] : Fin 2 → Nat) = fun _ => 0 := funext fun a => by fin_cases a <;> rfl

/-- There are 20 points. -/
theorem point_lt (t : Fin cfg0.N) : t.val < 20 := lt_of_lt_of_eq t.isLt N_0

/-- At point `t` the aggregated features, the node features and the output are at block `(t, 0)`; the weights and the
    bias are at block `(0, 0)` (decided over the 20 points). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is node `5000·t + p`. -/
def node (t : Fin cfg0.N) (p : Fin 5000) : Fin 100000 :=
  ⟨t.val * 5000 + p.val, by have := p.isLt; have := point_lt t; omega⟩

variable (c : Dev nD)

/-! ## Reading a window's block of any array -/

/-- Point `t`'s block of the first operand's array, at `(p, k)`: the array at `(5000·t + p, k)`. -/
theorem read_rows0 (A : Buf (Elt Ideal) ((c : Thread nD τ).loc (Pipeline.arrRef spec0 0))) (t : Fin cfg0.N)
    (p : Fin 5000) (k : Fin 128) :
    ((cfg0.win 0).blk t).view.read (Elt Ideal) A (ix2 p k) = A (ix2 (node t p) k) := by
  obtain ⟨e0, e1, -⟩ := block_indices t
  show A (((cfg0.win 0).blk t).view.emb (ix2 p k)) = _
  refine congrArg A (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The same for the second operand's array. -/
theorem read_rows1 (A : Buf (Elt Ideal) ((c : Thread nD τ).loc (Pipeline.arrRef spec0 1))) (t : Fin cfg0.N)
    (p : Fin 5000) (k : Fin 128) :
    ((cfg0.win 1).blk t).view.read (Elt Ideal) A (ix2 p k) = A (ix2 (node t p) k) := by
  obtain ⟨-, -, e0, e1, -⟩ := block_indices t
  show A (((cfg0.win 1).blk t).view.emb (ix2 p k)) = _
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The third operand's block is its whole array. -/
theorem read_whole2 (A : Buf (Elt Ideal) ((c : Thread nD τ).loc (Pipeline.arrRef spec0 2))) (t : Fin cfg0.N)
    (k q : Fin 128) : ((cfg0.win 2).blk t).view.read (Elt Ideal) A (ix2 k q) = A (ix2 k q) := by
  obtain ⟨-, -, -, -, e0, e1, -⟩ := block_indices t
  show A (((cfg0.win 2).blk t).view.emb (ix2 k q)) = _
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- So is the fourth operand's: the one row. -/
theorem read_whole3 (A : Buf (Elt Ideal) ((c : Thread nD τ).loc (Pipeline.arrRef spec0 3))) (t : Fin cfg0.N)
    (q : Fin 128) : ((cfg0.win 3).blk t).view.read (Elt Ideal) A (ix2 (0 : Fin 1) q) = A (ix2 (0 : Fin 1) q) := by
  obtain ⟨-, -, -, -, -, -, e0, e1, -⟩ := block_indices t
  show A (((cfg0.win 3).blk t).view.emb (ix2 (0 : Fin 1) q)) = _
  refine congrArg A (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- And the fifth operand's. -/
theorem read_whole4 (A : Buf (Elt Ideal) ((c : Thread nD τ).loc (Pipeline.arrRef spec0 4))) (t : Fin cfg0.N)
    (k q : Fin 128) : ((cfg0.win 4).blk t).view.read (Elt Ideal) A (ix2 k q) = A (ix2 k q) := by
  obtain ⟨-, -, -, -, -, -, -, -, e0, e1, -⟩ := block_indices t
  show A (((cfg0.win 4).blk t).view.emb (ix2 k q)) = _
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Entry `(p, q)` of point `t`'s output block is entry `(5000·t + p, q)` of the output. -/
theorem out_place (t : Fin cfg0.N) (p : Fin 5000) (q : Fin 128) :
    ((cfg0.win 5).blk t).view.emb (ix2 p q) = ix2 (node t p) q := by
  obtain ⟨-, -, -, -, -, -, -, -, -, -, e0, e1⟩ := block_indices t
  refine funext fun a => Fin.ext ?_
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-! ## The blocks cover the output -/

/-- An index of the output is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Node `r` is in the block of point `r / 5000`, and every point writes its block back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht20 : (i 0).val / 5000 < 20 := by omega
  let t : Fin cfg0.N := ⟨(i 0).val / 5000, lt_of_lt_of_eq ht20 N_0.symm⟩
  obtain ⟨-, -, -, -, -, -, -, -, -, -, e0, e1⟩ := block_indices t
  have ht : t.val = (i 0).val / 5000 := rfl
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

end Cert.KernelIdeal.BlockPlaces

end
-- ==== Proof.KernelArray.lean ====
/-
  The kernel's output array, whole.

  At grid point `t` the body is handed point `t`'s block of each operand's array and what it stores is written back to
  point `t`'s block of the output. Whatever the five arrays are, the value stored at `(p, q)` is the layer over those
  arrays at node `5000·t + p` and feature `q` (`BlockValue.payload_at`: each loaded entry is the array's entry at
  the block's place, `BlockPlaces`), that is, what a point writes back is its block of one array, the layer over the
  arrays as found; the 20 blocks cover the output; so the output after the run is that array.
-/
import proofs.«158038_j3693671874806_1_alg».proof.Proof.Gen.KernelIdeal.Value
import proofs.«158038_j3693671874806_1_alg».proof.Proof.BlockValue
import proofs.«158038_j3693671874806_1_alg».proof.Proof.BlockPlaces

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

/-! ## What a point writes back, for any five arrays -/

/-- The body's stored value on point `t`'s blocks of five arrays, cut to the output window's block, is point `t`'s
    block of the layer over those arrays. -/
theorem writes_block (c : Dev nD) (A0 : Buf (Elt Ideal) ((c : Thread nD τ).loc (Pipeline.arrRef spec0 0))) (A1 : Buf (Elt Ideal) ((c : Thread nD τ).loc (Pipeline.arrRef spec0 1)))
    (A2 : Buf (Elt Ideal) ((c : Thread nD τ).loc (Pipeline.arrRef spec0 2))) (A3 : Buf (Elt Ideal) ((c : Thread nD τ).loc (Pipeline.arrRef spec0 3)))
    (A4 : Buf (Elt Ideal) ((c : Thread nD τ).loc (Pipeline.arrRef spec0 4))) (t : Fin cfg0.N) :
    (cfg0.win 5).cut (grid0.coords t)
        (k0_pay1 (((cfg0.win 0).blk t).view.read (Elt Ideal) A0) (((cfg0.win 1).blk t).view.read (Elt Ideal) A1)
          (((cfg0.win 2).blk t).view.read (Elt Ideal) A2) (((cfg0.win 4).blk t).view.read (Elt Ideal) A4)
          (((cfg0.win 3).blk t).view.read (Elt Ideal) A3))
      = ((cfg0.win 5).blk t).view.read (Elt Ideal) (BlockValue.found A0 A1 A2 A4 A3) := by
  funext j
  obtain ⟨p, q, rfl⟩ : ∃ (p : Fin 5000) (q : Fin 128), j = ix2 p q := ⟨j 0, j 1, eq_ix2 j⟩
  show k0_pay1 (((cfg0.win 0).blk t).view.read (Elt Ideal) A0) (((cfg0.win 1).blk t).view.read (Elt Ideal) A1)
      (((cfg0.win 2).blk t).view.read (Elt Ideal) A2) (((cfg0.win 4).blk t).view.read (Elt Ideal) A4)
      (((cfg0.win 3).blk t).view.read (Elt Ideal) A3) (ix2 p q)
    = BlockValue.found A0 A1 A2 A4 A3 (((cfg0.win 5).blk t).view.emb (ix2 p q))
  rw [BlockPlaces.out_place, BlockValue.found_ix2, BlockValue.payload_at]
  refine congrArg Cert.LeakySage.leaky ?_
  refine congrArg₂ (· + ·) (congrArg₂ (· + ·) (Finset.sum_congr rfl fun k _ => ?_) ?_) (Finset.sum_congr rfl fun k _ => ?_)
  · exact congrArg₂ (· * ·) (BlockPlaces.read_rows0 c A0 t p k) (BlockPlaces.read_whole2 c A2 t k q)
  · exact BlockPlaces.read_whole3 c A3 t q
  · exact congrArg₂ (· * ·) (BlockPlaces.read_rows1 c A1 t p k) (BlockPlaces.read_whole4 c A4 t k q)

/-! ## The output array, and the run -/

variable (m : (ℓ : Loc nD τ sig) → Buf (Elt Ideal) ℓ) (ρ : Dev nD → PrngReg)

/-- The layer over the five arrays the kernel is launched on, as the host operations left them. -/
abbrev whole (c : Dev nD) : S100000x128.Idx → EReal :=
  BlockValue.found (V m c (Pipeline.arrRef spec0 0)) (V m c (Pipeline.arrRef spec0 1)) (V m c (Pipeline.arrRef spec0 2))
    (V m c (Pipeline.arrRef spec0 4)) (V m c (Pipeline.arrRef spec0 3))

/-- What point `t` writes back is block `t` of that array. -/
theorem flushed_eq (c : Dev nD) (t : Fin cfg0.N) :
    (dats m 0 c).flushed 5 t = ((cfg0.win 5).blk t).view.read (Elt Ideal) (whole m c) := by
  rw [Value.flushed5]
  unfold out0_5
  rw [View.canon_unit_zero BlockPlaces.origin]
  simp only [View.ld_unit_zero (S := S5000x128) BlockPlaces.origin, View.ld_unit_zero (S := S128x128) BlockPlaces.origin,
    View.ld_unit_zero (S := S1x128) BlockPlaces.origin]
  unfold iblk
  exact writes_block c (V m c (Pipeline.arrRef spec0 0)) (V m c (Pipeline.arrRef spec0 1)) (V m c (Pipeline.arrRef spec0 2))
    (V m c (Pipeline.arrRef spec0 3)) (V m c (Pipeline.arrRef spec0 4)) t

/-- The output array after the run is the layer over the arrays the kernel was launched on. -/
theorem final (c : Dev nD) : (dats m 0 c).arrAt 5 cfg0.N = whole m c :=
  (dats m 0 c).arrAt_eq_of_cover 5 (whole m c) (fun t _ => flushed_eq m c t) BlockPlaces.covered

/-- Every weakly fair execution of the kernel's program terminates with the result array at that layer and the
    arguments unchanged. -/
theorem run : θ_run defs (onTc (τ := τ) (main (F := Ideal))) ⟨m, fun _ => 0, ρ⟩ fun r => ∀ c : Dev nD,
      r.2.mem ((c : Thread nD τ).loc main_v26) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.HostWindows.lean ====
/-
  The arrays the host prepares for the kernel besides the aggregated features, read at an index.

  Before the kernel is launched the two weight matrices are transposed and the bias is reshaped to one row. So, as
  the kernel finds them,
    • the left weights' array at (input feature `k`, output feature `q`) is the left weight matrix at `(q, k)`,
    • the right weights' array likewise,
    • the bias row at `(0, q)` is the bias at `q`.
  The node features reach the kernel as the program received them.
-/
import proofs.«158038_j3693671874806_1_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.HostWindows

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The left weights as the kernel finds them: the left weight matrix, transposed. -/
theorem left_weights_eq : (V m c main_v23 : S128x128.Idx → EReal)
    = transpose S128x128 [1, 0] (m ((c : Thread nD τ).loc main_arg2)) transposes_S128x128_S128x128_1_0 := by
  dsimp only [Gen.V, Gen.hostOps0]; after_results

/-- The right weights as the kernel finds them: the right weight matrix, transposed. -/
theorem right_weights_eq : (V m c main_v24 : S128x128.Idx → EReal)
    = transpose S128x128 [1, 0] (m ((c : Thread nD τ).loc main_arg4)) transposes_S128x128_S128x128_1_0 := by
  dsimp only [Gen.V, Gen.hostOps0]; after_results

/-- The bias as the kernel finds it: the bias vector, as one row. -/
theorem bias_row_eq : (V m c main_v25 : S1x128.Idx → EReal)
    = shapeCast S1x128 (m ((c : Thread nD τ).loc main_arg3)) shapeCasts_S128_S1x128 := by
  dsimp only [Gen.V, Gen.hostOps0]; after_results; rfl

/-- The left weights' array at `(k, q)` is the left weight matrix at `(q, k)`. -/
theorem left_weights_at (k q : Fin 128) :
    V m c main_v23 (ix2 k q) = m ((c : Thread nD τ).loc main_arg2) (ix2 q k) := by
  rw [left_weights_eq]; exact transpose_ix2_apply _ _ k q

/-- The right weights' array at `(k, q)` is the right weight matrix at `(q, k)`. -/
theorem right_weights_at (k q : Fin 128) :
    V m c main_v24 (ix2 k q) = m ((c : Thread nD τ).loc main_arg4) (ix2 q k) := by
  rw [right_weights_eq]; exact transpose_ix2_apply _ _ k q

/-- The bias row at `(0, q)` is the bias at `q`. -/
theorem bias_row_at (q : Fin 128) :
    V m c main_v25 (ix2 (0 : Fin 1) q) = m ((c : Thread nD τ).loc main_arg3) (ix1 q) := by
  rw [bias_row_eq]; exact shapeCast_a_1a_apply _ _ 0 q

end Cert.KernelIdeal.HostWindows

end
-- ==== Proof.FoundArrays.lean ====
/-
  The layer over the arrays as the kernel finds them is the layer of the program's own arguments.

  Of the five arrays the kernel is launched on, the node features are the program's argument untouched; the two weight
  arrays are the weight matrices transposed and the bias row is the bias (`HostWindows`); the aggregated features are
  what the host operations computed. Reading a transposed weight array at `(k, q)` is reading the matrix at `(q, k)`,
  so the layer over the arrays as found is the layer of the aggregated features, the node features, the two weight
  matrices and the bias.
-/
import proofs.«158038_j3693671874806_1_alg».proof.Proof.Gen.KernelIdeal.Frame
import proofs.«158038_j3693671874806_1_alg».proof.Proof.BlockValue
import proofs.«158038_j3693671874806_1_alg».proof.Proof.HostWindows

noncomputable section

namespace Cert.KernelIdeal.FoundArrays

open Cert.KernelIdeal Cert.KernelIdeal.Gen Idealize.ShloMosaic Idealize.ShloMosaic.TcCoe Idealize.SL.Sem

variable (m : (ℓ : Loc nD τ sig) → Buf (Elt Ideal) ℓ) (c : Dev nD)

/-- The second operand's array is the program's node features: no host operation writes them. -/
theorem features_eq : (V m c (Pipeline.arrRef spec0 1)) = m ((c : Thread nD τ).loc main_arg0) := V_main_arg0 m c

theorem found_is_layer :
    BlockValue.found (V m c (Pipeline.arrRef spec0 0)) (V m c (Pipeline.arrRef spec0 1)) (V m c (Pipeline.arrRef spec0 2))
        (V m c (Pipeline.arrRef spec0 4)) (V m c (Pipeline.arrRef spec0 3))
      = Cert.LeakySage.layer (V m c main_v22) (m ((c : Thread nD τ).loc main_arg0)) (m ((c : Thread nD τ).loc main_arg2))
          (m ((c : Thread nD τ).loc main_arg4)) (m ((c : Thread nD τ).loc main_arg3)) := by
  rw [features_eq]
  exact BlockValue.found_eq_layer (V m c (Pipeline.arrRef spec0 0)) (m ((c : Thread nD τ).loc main_arg0))
    (V m c (Pipeline.arrRef spec0 2)) (V m c (Pipeline.arrRef spec0 4))
    (m ((c : Thread nD τ).loc main_arg2)) (m ((c : Thread nD τ).loc main_arg4)) (V m c (Pipeline.arrRef spec0 3))
    (m ((c : Thread nD τ).loc main_arg3))
    (HostWindows.left_weights_at m c) (HostWindows.right_weights_at m c) (HostWindows.bias_row_at m c)

end Cert.KernelIdeal.FoundArrays

end
-- ==== Proof.lean ====
/-
  A graph convolution with mean aggregation, a bias and a leaky rectifier: the kernel's program against the reference.

  Both programs first average, for every node, the feature rows of the nodes that have an edge into it (a gather, two
  scattered sums and a division by the larger of the edge count and one). The reference then computes, for node `p`
  and output feature `q`,

      s(p, q) = ((∑ₖ agg(p, k) · W_l(q, k)) + b(q)) + ∑ₖ x(p, k) · W_r(q, k),      out(p, q) = s if s > 0 else slope · s,

  with two products against transposed weight matrices over all 100000 nodes at once. The kernel's program
  transposes the weights and lays the bias out as a row on the host, and then computes the same thing 5000 nodes at
  a time in 20 blocks, each block with two matrix products accumulated into zeros whose operands are first narrowed to
  16-bit floats.

  Over the extended reals the two results are equal entry by entry, and no rearrangement of a sum is involved:
    • the narrowing of a product's operands is the identity, a product accumulated into zeros is the plain sum, and
      a product against a transposed matrix reads the matrix with its two indices exchanged (`BlockValue`,
      `ReferenceValue`, `HostWindows`);
    • the 20 blocks are the rows `5000·t … 5000·t + 4999` and cover the output (`BlockPlaces`, `KernelArray`), so the
      output is the layer over the five arrays the kernel is launched on, which is the layer of the program's own
      weight matrices and bias (`FoundArrays`);
    • the averaging is the same list of operations in both programs, so the array the kernel is launched on is the
      one the reference computes (`SameAggregate`); neither the gather nor the scattered sums is ever opened;
    • both sides are then one function of the same five arrays (`LeakySage`).
  Nothing here needs the inputs to be finite. The kernel's idealization rewrote no operation, so there is nothing to
  preserve; each program's frame is its generated run.
-/
import proofs.«158038_j3693671874806_1_alg».proof.Defs
import proofs.«158038_j3693671874806_1_alg».proof.Proof.Gen.Kernel
import proofs.«158038_j3693671874806_1_alg».proof.Proof.Gen.Kernel.Skeleton
import proofs.«158038_j3693671874806_1_alg».proof.Proof.Gen.Kernel.Launch
import proofs.«158038_j3693671874806_1_alg».proof.Proof.Gen.Kernel.Points
import proofs.«158038_j3693671874806_1_alg».proof.Proof.Gen.Kernel.Frame
import proofs.«158038_j3693671874806_1_alg».proof.Proof.Gen.KernelIdeal
import proofs.«158038_j3693671874806_1_alg».proof.Proof.Gen.KernelIdeal.Skeleton
import proofs.«158038_j3693671874806_1_alg».proof.Proof.Gen.KernelIdeal.Launch
import proofs.«158038_j3693671874806_1_alg».proof.Proof.Gen.KernelIdeal.Points
import proofs.«158038_j3693671874806_1_alg».proof.Proof.Gen.KernelIdeal.Frame
import proofs.«158038_j3693671874806_1_alg».proof.Proof.Gen.ReferenceIdeal
import proofs.«158038_j3693671874806_1_alg».proof.Proof.Gen.Pre_finite_inputs
import proofs.«158038_j3693671874806_1_alg».proof.Proof.Gen.KernelIdeal.Value
import proofs.«158038_j3693671874806_1_alg».proof.Proof.Gen.ReferenceIdeal.Run
import proofs.«158038_j3693671874806_1_alg».proof.Proof.Gen.ReferenceIdeal.Read
import proofs.«158038_j3693671874806_1_alg».proof.Proof.LeakySage
import proofs.«158038_j3693671874806_1_alg».proof.Proof.ReferenceValue
import proofs.«158038_j3693671874806_1_alg».proof.Proof.SameAggregate
import proofs.«158038_j3693671874806_1_alg».proof.Proof.KernelArray
import proofs.«158038_j3693671874806_1_alg».proof.Proof.FoundArrays
import Idealize.ShloMosaic.Adequacy
import Idealize.ShloMosaic.Init

noncomputable section

namespace Cert.Proof

open Idealize.ShloMosaic Idealize.SL.Sem

/-- The kernel's program as printed runs, and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's result array ends at the layer of the aggregated
    features the host left it, and the reference's at the layer of the aggregated features it computed: the same
    array, since the two aggregations are the same operations of the same node features and edge list. -/
theorem algebraic : Cert.algebraic_KernelIdeal_ReferenceIdeal := by
  intro m ρ m' ρ' _ hagree
  refine ⟨fun c => Cert.KernelIdeal.ArrayValue.whole m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq,
    (hagree c).1, (hagree c).2.1, (hagree c).2.2.1, (hagree c).2.2.2.1, (hagree c).2.2.2.2]
  exact ((Cert.KernelIdeal.FoundArrays.found_is_layer m c).trans
    (congrArg (fun a => Cert.LeakySage.layer a _ _ _ _) (Cert.KernelIdeal.SameAggregate.aggregate_eq m c))).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
